-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S1024x1024 : Shape := ⟨2, ![1024, 1024]⟩
abbrev S2048x1024 : Shape := ⟨2, ![2048, 1024]⟩
abbrev S1x2048 : Shape := ⟨2, ![1, 2048]⟩
abbrev S1024x2048 : Shape := ⟨2, ![1024, 2048]⟩

abbrev nBuf : Space → Nat
  | .hbm => 10
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x4096, .bf16⟩
  | .hbm, ⟨5, _⟩ => ⟨S4096x4096, .f32⟩
  | .hbm, ⟨6, _⟩ => ⟨S4096x4096, .bf16⟩
  | .hbm, ⟨7, _⟩ => ⟨S1x4096, .f32⟩
  | .hbm, ⟨8, _⟩ => ⟨S8192x4096, .f32⟩
  | .hbm, ⟨9, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4x2048x4096, .f32⟩
  | .hbm, ⟨5, _⟩ => ⟨S1x1x4096, .f32⟩
  | .hbm, ⟨6, _⟩ => ⟨S4x2048x4096, .f32⟩
  | .hbm, ⟨7, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.CaseValues.lean ====
/-
  What one visit of the body leaves in the output tile, as a value of what it found there.

  The output tile (1024 rows of x by 2048 rows of the weight) stays in place while the contraction axis is swept in four
  chunks of 1024. A visit at the first chunk overwrites the tile with zero and then adds the chunk's product; a visit at a
  middle chunk adds its product to what the tile holds; the visit at the last chunk adds its product and then the
  bias row. Here each of the three is read off the stores the run found: the tile after the visit is the body's own
  arithmetic (the two store payloads `k0_pay2`, `k0_pay3`) applied to the tile before it and to the visit's input blocks.
-/
import proofs.«111854_j18580028523111_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- The zero tile the first visit stores. -/
abbrev zeroTile : Vec F S1024x2048 .f32 := k0_pay1 (F := F)

/-- A middle visit: the tile `xo` it finds, plus the product of the visit's blocks. -/
theorem tile_mid (c : Dev nD) (i : grid0.Coords) (a3 : Memref sig .tc .vmem S1024x1024 .bf16) (h3 : a3.IsWhole)
    (a4 : Memref sig .tc .vmem S2048x1024 .bf16) (h4 : a4.IsWhole) (a5 : Memref sig .tc .vmem S1x2048 .f32) (h5 : a5.IsWhole)
    (a6 : Memref sig .tc .vmem S1024x2048 .f32) (h6 : a6.IsWhole) (hc0 : ¬cond0_0 i) (hc1 : ¬cond0_1 i)
    (x0 : Vec F S1024x1024 .bf16) (x1 : Vec F S2048x1024 .bf16) (x2 : Vec F S1x2048 .f32) (xo : Vec F S1024x2048 .f32) :
    out0_B_3 c i a3 h3 a4 h4 a5 h5 a6 h6 hc0 hc1 x0 x1 x2 xo = k0_pay2 xo x0 x1 := by
  unfold out0_B_3
  rw [View.read_writes_eq_canon _ _ _ (cover0_B_3 c i a3 h3 a4 h4 a5 h5 a6 h6 hc0 hc1 x0 x1 x2 xo)]
  unfold kernelRun0_B
  dsimp only
  rw [View.canon_unit_zero hz]
  simp only [View.readAt_eq_ld, h3.read_unread, h4.read_unread, h6.read_unread, View.ld_unit_zero (S := S1024x2048) hz,
    View.ld_unit_zero (S := S1024x1024) hz, View.ld_unit_zero (S := S2048x1024) hz]

/-- The first visit: the zero tile, plus the product of the visit's blocks. -/
theorem tile_first (c : Dev nD) (i : grid0.Coords) (a3 : Memref sig .tc .vmem S1024x1024 .bf16) (h3 : a3.IsWhole)
    (a4 : Memref sig .tc .vmem S2048x1024 .bf16) (h4 : a4.IsWhole) (a5 : Memref sig .tc .vmem S1x2048 .f32) (h5 : a5.IsWhole)
    (a6 : Memref sig .tc .vmem S1024x2048 .f32) (h6 : a6.IsWhole) (hc0 : cond0_0 i) (hc1 : ¬cond0_1 i)
    (x0 : Vec F S1024x1024 .bf16) (x1 : Vec F S2048x1024 .bf16) (x2 : Vec F S1x2048 .f32) :
    out0_A_3 c i a3 h3 a4 h4 a5 h5 a6 h6 hc0 hc1 x0 x1 x2 = k0_pay2 zeroTile x0 x1 := by
  unfold out0_A_3
  rw [View.read_writes_eq_canon _ _ _ (cover0_A_3 c i a3 h3 a4 h4 a5 h5 a6 h6 hc0 hc1 x0 x1 x2)]
  unfold kernelRun0_A
  dsimp only
  sl_unfold_words
  rw [View.canon_cons_unit_zero (S := S1024x2048) hz, View.readCov_unit_zero (S := S1024x2048) _ hz]
  simp only [View.readAt_eq_ld, h3.read_unread, h4.read_unread, h5.read_unread, h6.read_unread,
    View.ld_unit_zero (S := S1024x2048) hz, View.ld_unit_zero (S := S1024x1024) hz, View.ld_unit_zero (S := S2048x1024) hz,
    View.ld_unit_zero (S := S1x2048) hz]

/-- The last visit: the tile `xo` it finds, plus the product of the visit's blocks, plus the bias row on every row. -/
theorem tile_last (c : Dev nD) (i : grid0.Coords) (a3 : Memref sig .tc .vmem S1024x1024 .bf16) (h3 : a3.IsWhole)
    (a4 : Memref sig .tc .vmem S2048x1024 .bf16) (h4 : a4.IsWhole) (a5 : Memref sig .tc .vmem S1x2048 .f32) (h5 : a5.IsWhole)
    (a6 : Memref sig .tc .vmem S1024x2048 .f32) (h6 : a6.IsWhole) (hc0 : ¬cond0_0 i) (hc1 : cond0_1 i)
    (x0 : Vec F S1024x1024 .bf16) (x1 : Vec F S2048x1024 .bf16) (x2 : Vec F S1x2048 .f32) (xo : Vec F S1024x2048 .f32) :
    out0_C_3 c i a3 h3 a4 h4 a5 h5 a6 h6 hc0 hc1 x0 x1 x2 xo = k0_pay3 (k0_pay2 xo x0 x1) x2 := by
  unfold out0_C_3
  rw [View.read_writes_eq_canon _ _ _ (cover0_C_3 c i a3 h3 a4 h4 a5 h5 a6 h6 hc0 hc1 x0 x1 x2 xo)]
  unfold kernelRun0_C
  dsimp only
  sl_unfold_words
  rw [View.canon_cons_unit_zero (S := S1024x2048) hz, View.readCov_unit_zero (S := S1024x2048) _ hz]
  simp only [View.readAt_eq_ld, h3.read_unread, h4.read_unread, h5.read_unread, h6.read_unread,
    View.ld_unit_zero (S := S1024x2048) hz, View.ld_unit_zero (S := S1024x1024) hz, View.ld_unit_zero (S := S2048x1024) hz,
    View.ld_unit_zero (S := S1x2048) hz]

end Cert.KernelIdeal.Acc

end
-- ==== Proof.Tile.lean ====
/-
  The output tile after the closing visit of a sweep, as a value of the sweep's input blocks.

  Grid point t = 8·i + 4·j + k visits output tile (i, j) with contraction chunk k. What the tile holds after point t is
  given by recursion on t; at a closing point (k = 3) the recursion is opened four steps back to the sweep's first point,
  where the tile was reset: the tile is then
      ((((0 + P(t−3)) + P(t−2)) + P(t−1)) + P(t)) + bias row,
  P(u) the product of the x block and the weight block of point u.
-/
import proofs.«111854_j18580028523111_2_alg».proof.Proof.CaseValues

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- The x block, the weight block and the bias block of point `t`, at their literal shapes. -/
def xBlk (c : Dev nD) (t : Fin cfg0.N) : Vec F S1024x1024 .bf16 := iblk m c 0 t
def wBlk (c : Dev nD) (t : Fin cfg0.N) : Vec F S2048x1024 .bf16 := iblk m c 1 t
def bBlk (c : Dev nD) (t : Fin cfg0.N) : Vec F S1x2048 .f32 := iblk m c 2 t

/-- The point `j` steps before `t`. -/
def stepsBefore (t : Fin cfg0.N) (j : ℕ) : Fin cfg0.N := ⟨t.val - j, Nat.lt_of_le_of_lt (Nat.sub_le _ _) t.isLt⟩

/-- After a sweep's first point: zero plus that point's product. -/
theorem after_first (c : Dev nD) (t : Fin cfg0.N) (h0 : t.val % 4 = 0) :
    outsAt0 m c t.val t.isLt = k0_pay2 zeroTile (xBlk m c t) (wBlk m c t) :=
  (outsAt0_A m c t h0 (by omega)).trans
    (tile_first c (grid0.coords t) (ms0_0 t) (hs0_0 t) (ms0_1 t) (hs0_1 t) (ms0_2 t) (hs0_2 t) (ms0_3 t) (hs0_3 t) _ _
      (iblk m c 0 t) (iblk m c 1 t) (iblk m c 2 t))

/-- After a middle point: what the point before left, plus this point's product. -/
theorem after_mid (c : Dev nD) (t : Fin cfg0.N) (h0 : ¬t.val % 4 = 0) (h3 : ¬t.val % 4 = 3) :
    outsAt0 m c t.val t.isLt
      = k0_pay2 (outsAt0 m c (stepsBefore t 1).val (stepsBefore t 1).isLt) (xBlk m c t) (wBlk m c t) :=
  (outsAt0_B m c t h0 h3).trans
    (tile_mid c (grid0.coords t) (ms0_0 t) (hs0_0 t) (ms0_1 t) (hs0_1 t) (ms0_2 t) (hs0_2 t) (ms0_3 t) (hs0_3 t) _ _
      (iblk m c 0 t) (iblk m c 1 t) (iblk m c 2 t) _)

/-- After a closing point: what the point before left, plus this point's product, plus the bias row. -/
theorem after_last (c : Dev nD) (t : Fin cfg0.N) (h0 : ¬t.val % 4 = 0) (h3 : t.val % 4 = 3) :
    outsAt0 m c t.val t.isLt
      = k0_pay3 (k0_pay2 (outsAt0 m c (stepsBefore t 1).val (stepsBefore t 1).isLt) (xBlk m c t) (wBlk m c t)) (bBlk m c t) :=
  (outsAt0_C m c t h0 h3).trans
    (tile_last c (grid0.coords t) (ms0_0 t) (hs0_0 t) (ms0_1 t) (hs0_1 t) (ms0_2 t) (hs0_2 t) (ms0_3 t) (hs0_3 t) _ _
      (iblk m c 0 t) (iblk m c 1 t) (iblk m c 2 t) _)

/-- THE SWEEP. At a closing point the tile is the four products added in order onto zero, then the bias row. -/
theorem after_sweep (c : Dev nD) (t : Fin cfg0.N) (h3 : t.val % 4 = 3) :
    outsAt0 m c t.val t.isLt
      = k0_pay3 (k0_pay2 (k0_pay2 (k0_pay2 (k0_pay2 zeroTile
            (xBlk m c (stepsBefore t 3)) (wBlk m c (stepsBefore t 3)))
            (xBlk m c (stepsBefore t 2)) (wBlk m c (stepsBefore t 2)))
            (xBlk m c (stepsBefore t 1)) (wBlk m c (stepsBefore t 1)))
            (xBlk m c t) (wBlk m c t)) (bBlk m c t) := by
  have e1 : (stepsBefore t 1).val = t.val - 1 := rfl
  have e2 : (stepsBefore (stepsBefore t 1) 1) = stepsBefore t 2 := Fin.ext (by show t.val - 1 - 1 = t.val - 2; omega)
  have e3 : (stepsBefore (stepsBefore t 2) 1) = stepsBefore t 3 := Fin.ext (by show t.val - 2 - 1 = t.val - 3; omega)
  have v2 : (stepsBefore t 2).val = t.val - 2 := rfl
  have v3 : (stepsBefore t 3).val = t.val - 3 := rfl
  rw [after_last m c t (by omega) h3,
    after_mid m c (stepsBefore t 1) (by rw [e1]; omega) (by rw [e1]; omega), e2,
    after_mid m c (stepsBefore t 2) (by rw [v2]; omega) (by rw [v2]; omega), e3,
    after_first m c (stepsBefore t 3) (by rw [v3]; omega)]

end Cert.KernelIdeal.Acc

end
-- ==== Proof.Payloads.lean ====
/-
  The body's arithmetic at one entry of the tile, over the extended reals.

  With exact arithmetic the body's two store payloads are, at row `p` and column `q` of the 1024 by 2048 tile:
  the accumulating store — the tile's entry plus the sum over the chunk's 1024 contraction positions `r` of
  (x block)(p, r) · (weight block)(q, r) (both blocks carry the contraction on their second axis); and the closing
  store — the tile's entry plus the bias row's entry of column `q`. The zero tile reads 0.
-/
import proofs.«111854_j18580028523111_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.KernelIdeal.Acc

open Cert.KernelIdeal Cert.KernelIdeal.Gen

/-- The product's dimension numbers: both operands contract their second axis. -/
abbrev DD : DotDims S1024x1024 S2048x1024 S1024x2048 := dot_S1024x1024_S2048x1024_S1024x2048_1_1_0_0_n_n

/-- The product's left operand is read at (the output's row, the contraction position) … -/
theorem lhs_row (i : S1024x2048.Idx) (k : DD.contr.Idx) : (DD.lhsIdx i k 0).val = (i 0).val := by
  unfold DotDims.lhsIdx
  rw [dif_neg (show ¬(0 : Fin S1024x1024.rank) ∈ DD.lhsBatch by decide),
    dif_pos (show (0 : Fin S1024x1024.rank) ∈ DD.lhsNonContracting by decide)]
  rfl
theorem lhs_contr (i : S1024x2048.Idx) (k : DD.contr.Idx) : (DD.lhsIdx i k 1).val = (k ⟨0, by decide⟩).val :=
  DD.lhsIdx_val_of_single rfl i k
/-- … and its right operand at (the output's column, the contraction position). -/
theorem rhs_row (i : S1024x2048.Idx) (k : DD.contr.Idx) : (DD.rhsIdx i k 0).val = (i 1).val := by
  unfold DotDims.rhsIdx
  rw [dif_neg (show ¬(0 : Fin S2048x1024.rank) ∈ DD.rhsBatch by decide),
    dif_pos (show (0 : Fin S2048x1024.rank) ∈ DD.rhsNonContracting by decide)]
  rfl
theorem rhs_contr (i : S1024x2048.Idx) (k : DD.contr.Idx) : (DD.rhsIdx i k 1).val = (k ⟨0, by decide⟩).val :=
  DD.rhsIdx_val_of_single rfl i k

/-- The chunk's product into the zero accumulator, at (p, q): the sum over the chunk of x(p, r) · w(q, r). -/
theorem chunk_product (x0 : FVec Ideal S1024x1024 .bf16) (x1 : FVec Ideal S2048x1024 .bf16) (p : Fin 1024) (q : Fin 2048) :
    matmul DD none x0 x1 (constant S1024x2048 .f32 0x00000000#32) (ix2 p q) = ∑ r : Fin 1024, x0 (ix2 p r) * x1 (ix2 q r) := by
  simp only [matmul]
  rw [Ideal.matmul_constant_zero_apply, ← Equiv.sum_comp (contrEquiv1 DD 1024 rfl rfl).symm]
  refine Finset.sum_congr rfl fun r _ => ?_
  have hr := contrEquiv1_symm_val DD 1024 rfl rfl r
  have el : DD.lhsIdx (ix2 p q) ((contrEquiv1 DD 1024 rfl rfl).symm r) = ix2 p r := funext fun a => Fin.ext (by
    match a with
    | ⟨0, _⟩ => exact lhs_row _ _
    | ⟨1, _⟩ => exact (lhs_contr _ _).trans hr)
  have er : DD.rhsIdx (ix2 p q) ((contrEquiv1 DD 1024 rfl rfl).symm r) = ix2 q r := funext fun a => Fin.ext (by
    match a with
    | ⟨0, _⟩ => exact rhs_row _ _
    | ⟨1, _⟩ => exact (rhs_contr _ _).trans hr)
  rw [el, er]

/-- The accumulating store's payload at (p, q). -/
theorem accumulate_apply (acc : Vec Ideal S1024x2048 .f32) (x0 : Vec Ideal S1024x1024 .bf16) (x1 : Vec Ideal S2048x1024 .bf16)
    (p : Fin 1024) (q : Fin 2048) :
    k0_pay2 (F := Ideal) acc x0 x1 (ix2 p q) = acc (ix2 p q) + ∑ r : Fin 1024, x0 (ix2 p r) * x1 (ix2 q r) := by
  unfold k0_pay2
  simp only [shapeCast_self]
  rw [addf_apply, chunk_product]

/-- The bias row spread over the tile's rows reads, at (p, q), the row's entry of column q. -/
theorem bias_rows_apply (b : FVec Ideal S1x2048 .f32) (p : Fin 1024) (q : Fin 2048) :
    broadcastTo S1024x2048 b broadcasts_S1x2048_S1024x2048 (ix2 p q) = b (ix2 (0 : Fin 1) q) := by
  refine broadcastTo_apply b _ (ix2 p q) (ix2 (0 : Fin 1) q) fun a => ?_
  match a with
  | ⟨0, _⟩ => show (0 : ℕ) = if (1 : ℕ) = 1 then 0 else p.val; rw [if_pos rfl]
  | ⟨1, _⟩ => show q.val = if (2048 : ℕ) = 1 then 0 else q.val; rw [if_neg (by decide)]

/-- The closing store's payload at (p, q). -/
theorem close_apply (acc : Vec Ideal S1024x2048 .f32) (b : Vec Ideal S1x2048 .f32) (p : Fin 1024) (q : Fin 2048) :
    k0_pay3 (F := Ideal) acc b (ix2 p q) = acc (ix2 p q) + b (ix2 (0 : Fin 1) q) := by
  unfold k0_pay3
  simp only [shapeCast_self]
  rw [addf_apply, bias_rows_apply]

/-- The zero tile reads 0. -/
theorem zero_apply (i : S1024x2048.Idx) : k0_pay1 (F := Ideal) i = 0 := by
  unfold k0_pay1
  show Ideal.ofBits .f32 0x00000000#32 = 0
  exact Ideal.ofBits_zero_f32

end Cert.KernelIdeal.Acc

end
-- ==== Proof.Spec.lean ====
/-
  The result both programs compute, and the one law that joins their two arrangements of it.

  Entry (row, o) of the result is  (∑ over the 4096 contraction positions d of X(row, d) · W(o, d)) + B(o),  with X the
  activations as an 8192 by 4096 matrix, W the sign matrix of the weight and B the bias. The kernel reaches the sum in
  four chunks of 1024 positions, added left to right onto a zero; the reference takes it whole. Addition on the extended
  reals is commutative and associative with neutral element 0 (also at the infinities), so the two agree for ANY
  entries: no finiteness is used.
-/
import Idealize.ShloMosaic.PureOps.Ideal.Laws
import Idealize.ShloMosaic.Lib.ValueIdx

noncomputable section

open scoped BigOperators

namespace Cert.BitLinear

open Idealize.ShloMosaic Idealize.ShloMosaic.ValueIdx

/-- Entry (a, o) of the result: row `a` of the activations against row `o` of the sign matrix, plus the bias of `o`. -/
def linAt (X : (⟨2, ![8192, 4096]⟩ : Shape).Idx → EReal) (W : (⟨2, ![4096, 4096]⟩ : Shape).Idx → EReal)
    (B : (⟨2, ![1, 4096]⟩ : Shape).Idx → EReal) (a : Fin 8192) (o : Fin 4096) : EReal :=
  (∑ d : Fin 4096, X (ix2 a d) * W (ix2 o d)) + B (ix2 (0 : Fin 1) o)

/-- The result as an 8192 by 4096 matrix. -/
def lin (X : (⟨2, ![8192, 4096]⟩ : Shape).Idx → EReal) (W : (⟨2, ![4096, 4096]⟩ : Shape).Idx → EReal)
    (B : (⟨2, ![1, 4096]⟩ : Shape).Idx → EReal) : (⟨2, ![8192, 4096]⟩ : Shape).Idx → EReal :=
  fun i => linAt X W B (i 0) (i 1)

/-- Contraction position `r` of chunk `kk`. -/
def chunkPos (kk : Fin 4) (r : Fin 1024) : Fin 4096 := ⟨kk.val * 1024 + r.val, by have := kk.isLt; have := r.isLt; omega⟩

/-- A sum over the 4096 positions is the sum over the four chunks of the sums inside each. -/
theorem sum_by_chunks (f : Fin 4096 → EReal) : ∑ d : Fin 4096, f d = ∑ kk : Fin 4, ∑ r : Fin 1024, f (chunkPos kk r) := by
  have e : ∀ x : Fin 4 × Fin 1024, (finProdFinEquiv x : Fin (4 * 1024)) = chunkPos x.1 x.2 := fun x =>
    Fin.ext (by show x.2.val + 1024 * x.1.val = x.1.val * 1024 + x.2.val; omega)
  rw [← Fintype.sum_prod_type']
  rw [← Equiv.sum_comp (finProdFinEquiv : Fin 4 × Fin 1024 ≃ Fin (4 * 1024)) f]
  exact Finset.sum_congr rfl fun x _ => congrArg f (e x)

/-- The kernel's order: the four chunk sums added one after the other onto zero, is the whole sum. -/
theorem chain_eq_sum (f : Fin 4096 → EReal) :
    ((((0 : EReal) + ∑ r : Fin 1024, f (chunkPos 0 r)) + ∑ r : Fin 1024, f (chunkPos 1 r)) + ∑ r : Fin 1024, f (chunkPos 2 r))
        + ∑ r : Fin 1024, f (chunkPos 3 r)
      = ∑ d : Fin 4096, f d := by
  rw [sum_by_chunks, Fin.sum_univ_four, zero_add]

end Cert.BitLinear

end
-- ==== Proof.Blocks.lean ====
/-
  Where the blocks of a grid point sit in their arrays, and the closed tile entry by entry.

  Grid point t = 8·i + 4·j + k: the x block is rows 1024·i … of the activations and columns 1024·k … (window 0); the
  weight block rows 2048·j … and columns 1024·k … of the sign matrix (window 1); the bias block columns 2048·j … of the
  bias row (window 2); the output tile rows 1024·i …, columns 2048·j … (window 3). So over a sweep (k = 0, 1, 2, 3 at fixed
  i, j) the four products' contraction positions are the four chunks of the 4096, and the tile entry (p, q) after the
  closing point is entry (1024·i + p, 2048·j + q) of the result matrix.
-/
import proofs.«111854_j18580028523111_2_alg».proof.Proof.Tile
import proofs.«111854_j18580028523111_2_alg».proof.Proof.Payloads
import proofs.«111854_j18580028523111_2_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.BitLinear

/-- The four index maps over the grid, in closed form (decided point by point). -/
theorem block_indices : ∀ t : Fin cfg0.N,
    win0_0.index t (0 : Fin 2) = t.val / 8 ∧ win0_0.index t (1 : Fin 2) = t.val % 4
    ∧ win0_1.index t (0 : Fin 2) = t.val / 4 % 2 ∧ win0_1.index t (1 : Fin 2) = t.val % 4
    ∧ win0_2.index t (0 : Fin 2) = 0 ∧ win0_2.index t (1 : Fin 2) = t.val / 4 % 2
    ∧ win0_3.index t (0 : Fin 2) = t.val / 8 ∧ win0_3.index t (1 : Fin 2) = t.val / 4 % 2 :=
  (by decide +kernel : ∀ t : Fin grid0.N, _)

section AnyF
variable {F : FTy → Type} [FloatOps F]
variable (m : (ℓ : Loc nD τ sig) → Buf (Elt F) ℓ)

/-- The x block of point t at (p, r) is the activations' entry (1024·(t/8) + p, 1024·(t%4) + r). -/
theorem xBlk_at (c : Dev nD) (t : Fin cfg0.N) (p r : Fin 1024) (a : Fin 8192) (d : Fin 4096)
    (ha : a.val = t.val / 8 * 1024 + p.val) (hd : d.val = t.val % 4 * 1024 + r.val) :
    xBlk m c t (ix2 p r) = V m c main_v1 (ix2 a d) := by
  obtain ⟨e0, e1, -⟩ := block_indices t
  unfold xBlk iblk
  rw [View.read_apply]
  show V m c main_v1 (((cfg0.win 0).blk t).view.emb (ix2 p r)) = V m c main_v1 (ix2 a d)
  refine congrArg (V m c main_v1) (funext fun ax => Fin.ext ?_)
  match ax with
  | ⟨0, _⟩ => show win0_0.index t (0 : Fin 2) * 1024 + 1 * p.val = a.val; rw [e0, ha]; omega
  | ⟨1, _⟩ => show win0_0.index t (1 : Fin 2) * 1024 + 1 * r.val = d.val; rw [e1, hd]; omega

/-- The weight block of point t at (q, r) is the sign matrix's entry (2048·(t/4%2) + q, 1024·(t%4) + r). -/
theorem wBlk_at (c : Dev nD) (t : Fin cfg0.N) (q : Fin 2048) (r : Fin 1024) (o d : Fin 4096)
    (ho : o.val = t.val / 4 % 2 * 2048 + q.val) (hd : d.val = t.val % 4 * 1024 + r.val) :
    wBlk m c t (ix2 q r) = V m c main_v3 (ix2 o d) := by
  obtain ⟨-, -, e2, e3, -⟩ := block_indices t
  unfold wBlk iblk
  rw [View.read_apply]
  show V m c main_v3 (((cfg0.win 1).blk t).view.emb (ix2 q r)) = V m c main_v3 (ix2 o d)
  refine congrArg (V m c main_v3) (funext fun ax => Fin.ext ?_)
  match ax with
  | ⟨0, _⟩ => show win0_1.index t (0 : Fin 2) * 2048 + 1 * q.val = o.val; rw [e2, ho]; omega
  | ⟨1, _⟩ => show win0_1.index t (1 : Fin 2) * 1024 + 1 * r.val = d.val; rw [e3, hd]; omega

/-- The bias block of point t at (0, q) is the bias row's entry of column 2048·(t/4%2) + q. -/
theorem bBlk_at (c : Dev nD) (t : Fin cfg0.N) (q : Fin 2048) (o : Fin 4096)
    (ho : o.val = t.val / 4 % 2 * 2048 + q.val) :
    bBlk m c t (ix2 (0 : Fin 1) q) = V m c main_v4 (ix2 (0 : Fin 1) o) := by
  obtain ⟨-, -, -, -, e4, e5, -⟩ := block_indices t
  unfold bBlk iblk
  rw [View.read_apply]
  show V m c main_v4 (((cfg0.win 2).blk t).view.emb (ix2 (0 : Fin 1) q)) = V m c main_v4 (ix2 (0 : Fin 1) o)
  refine congrArg (V m c main_v4) (funext fun ax => Fin.ext ?_)
  match ax with
  | ⟨0, _⟩ => show win0_2.index t (0 : Fin 2) * 1 + 1 * 0 = 0; rw [e4]
  | ⟨1, _⟩ => show win0_2.index t (1 : Fin 2) * 2048 + 1 * q.val = o.val; rw [e5, ho]; omega

end AnyF

variable (m : (ℓ : Loc nD τ sig) → Buf (Elt Ideal) ℓ)

/-- The three arrays the launch finds — the activations as a matrix, the sign matrix, the bias row — as extended reals. -/
abbrev actMat (c : Dev nD) : (⟨2, ![8192, 4096]⟩ : Shape).Idx → EReal := V m c main_v1
abbrev signMat (c : Dev nD) : (⟨2, ![4096, 4096]⟩ : Shape).Idx → EReal := V m c main_v3
abbrev biasRow (c : Dev nD) : (⟨2, ![1, 4096]⟩ : Shape).Idx → EReal := V m c main_v4

/-- The reset tile reads 0. -/
theorem zeroTile_apply (i : S1024x2048.Idx) : zeroTile (F := Ideal) i = 0 := zero_apply i

/-- THE CLOSED TILE, entry by entry: after the closing point t of a sweep, entry (p, q) of the tile is entry (a, o) of the
    result matrix over the arrays the launch finds, a = 1024·(t/8) + p, o = 2048·(t/4%2) + q. -/
theorem sweep_entry (c : Dev nD) (t : Fin cfg0.N) (h3 : t.val % 4 = 3) (p : Fin 1024) (q : Fin 2048) (a : Fin 8192) (o : Fin 4096)
    (ha : a.val = t.val / 8 * 1024 + p.val) (ho : o.val = t.val / 4 % 2 * 2048 + q.val) :
    outsAt0 m c t.val t.isLt (ix2 p q) = linAt (actMat m c) (signMat m c) (biasRow m c) a o := by
  have hN : t.val < 64 := lt_of_lt_of_eq t.isLt (show cfg0.N = 64 from N_0)
  rw [after_sweep m c t h3, close_apply, accumulate_apply, accumulate_apply, accumulate_apply, accumulate_apply, zeroTile_apply]
  have chunk : ∀ (kk : Fin 4) (u : Fin cfg0.N), u.val / 8 = t.val / 8 → u.val / 4 % 2 = t.val / 4 % 2 → u.val % 4 = kk.val →
      ∑ r : Fin 1024, xBlk m c u (ix2 p r) * wBlk m c u (ix2 q r)
        = ∑ r : Fin 1024, (fun d : Fin 4096 => actMat m c (ix2 a d) * signMat m c (ix2 o d)) (chunkPos kk r) :=
    fun kk u h1 h2 h4 => Finset.sum_congr rfl fun r _ => by
      rw [xBlk_at m c u p r a (chunkPos kk r) (by rw [h1]; exact ha) (by rw [h4]; rfl),
        wBlk_at m c u q r o (chunkPos kk r) (by rw [h2]; exact ho) (by rw [h4]; rfl)]
  have v1 : (stepsBefore t 1).val = t.val - 1 := rfl
  have v2 : (stepsBefore t 2).val = t.val - 2 := rfl
  have v3 : (stepsBefore t 3).val = t.val - 3 := rfl
  rw [chunk 0 (stepsBefore t 3) (by rw [v3]; omega) (by rw [v3]; omega) (by rw [v3]; show _ = 0; omega),
    chunk 1 (stepsBefore t 2) (by rw [v2]; omega) (by rw [v2]; omega) (by rw [v2]; show _ = 1; omega),
    chunk 2 (stepsBefore t 1) (by rw [v1]; omega) (by rw [v1]; omega) (by rw [v1]; show _ = 2; omega),
    chunk 3 t rfl rfl (by show _ = 3; omega),
    bBlk_at m c t q o ho]
  exact congrArg (fun z : EReal => z + biasRow m c (ix2 (0 : Fin 1) o))
    (chain_eq_sum (fun d : Fin 4096 => actMat m c (ix2 a d) * signMat m c (ix2 o d)))

end Cert.KernelIdeal.Acc

end
-- ==== Proof.ResultMatrix.lean ====
/-
  From tiles to the array: after the launch the kernel's output array is the result matrix.

  Only the closing points (k = 3) write their tile back, and the tile of closing point t = 8·i + 4·j + 3 is rows
  1024·i …, columns 2048·j … of the array. Each written tile is the matching block of ONE matrix (the closed tile, entry
  by entry), and the sixteen written tiles cover the 8192 by 4096 array: entry (a, o) lies in the tile of
  i = a / 1024, j = o / 2048. So the array ends holding that matrix.
-/
import proofs.«111854_j18580028523111_2_alg».proof.Proof.Blocks

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.BitLinear

variable (m : (ℓ : Loc nD τ sig) → Buf (Elt Ideal) ℓ)

/-- What a closing point writes back is its block of the result matrix. -/
theorem written_back (c : Dev nD) (t : Fin cfg0.N) (hf : (cfg0.win 3).flush t = true) :
    (dats m 0 c).flushed 3 t
      = ((cfg0.win 3).blk t).view.read (Elt Ideal) (lin (actMat m c) (signMat m c) (biasRow m c)) := by
  have h3 : t.val % 4 = 3 := (flush0_3 t).mp hf
  obtain ⟨-, -, -, -, -, -, e6, e7⟩ := block_indices t
  show (cfg0.win 3).cut (grid0.coords t) ((dats m 0 c).after 3 t) = _
  rw [after0_3]
  funext y
  show outsAt0 m c t.val t.isLt y
    = linAt (actMat m c) (signMat m c) (biasRow m c) ((((cfg0.win 3).blk t).view.emb y) 0) ((((cfg0.win 3).blk t).view.emb y) 1)
  refine (congrArg (outsAt0 m c t.val t.isLt) (eq_ix2 (n0 := 1024) (n1 := 2048) y)).trans ?_
  exact sweep_entry m c t h3 (y 0) (y 1) _ _
    (by show win0_3.index t (0 : Fin 2) * 1024 + 1 * (y 0).val = _; rw [e6]; omega)
    (by show win0_3.index t (1 : Fin 2) * 2048 + 1 * (y 1).val = _; rw [e7]; omega)

/-- An entry of the array is in point t's tile iff each coordinate is in the tile's range on its axis. -/
theorem mem_tile (t : Fin cfg0.N) (i : S8192x4096.Idx) :
    i ∈ ((cfg0.win 3).blk t).view.set
      ↔ ∀ a : Fin 2, win0_3.index t a * S1024x2048.size a ≤ (i a).val
          ∧ (i a).val < win0_3.index t a * S1024x2048.size a + S1024x2048.size a := by
  show i ∈ ((View.whole main_v5).slice (win0_3.rect t)).set ↔ _
  rw [View.set_slice_whole, Rect.mem_set_unit]
  exact Iff.rfl

/-- Every entry of the array is in the tile some closing point writes back. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 64 := N_0
  let t : Fin cfg0.N := ⟨(i 0).val / 1024 * 8 + (i 1).val / 2048 * 4 + 3, by rw [hN]; omega⟩
  have tv : t.val = (i 0).val / 1024 * 8 + (i 1).val / 2048 * 4 + 3 := rfl
  obtain ⟨-, -, -, -, -, -, e6, e7⟩ := block_indices t
  refine ⟨t, (flush0_3 t).mpr (by rw [tv]; omega), ?_⟩
  rw [mem_tile]
  intro a
  match a with
  | ⟨0, _⟩ =>
    show win0_3.index t (0 : Fin 2) * 1024 ≤ (i 0).val ∧ (i 0).val < win0_3.index t (0 : Fin 2) * 1024 + 1024
    rw [e6, tv]; omega
  | ⟨1, _⟩ =>
    show win0_3.index t (1 : Fin 2) * 2048 ≤ (i 1).val ∧ (i 1).val < win0_3.index t (1 : Fin 2) * 2048 + 2048
    rw [e7, tv]; omega

/-- THE ARRAY after the launch: the result matrix over the arrays the launch finds. -/
theorem result_matrix (c : Dev nD) :
    (dats m 0 c).arrAt 3 cfg0.N = lin (actMat m c) (signMat m c) (biasRow m c) :=
  (dats m 0 c).arrAt_eq_of_cover 3 (lin (actMat m c) (signMat m c) (biasRow m c)) (written_back m c) (fun i => covered i)

end Cert.KernelIdeal.Acc

end
-- ==== Proof.HostSide.lean ====
/-
  The host lines around the launch, read at an index.

  Before the launch the host flattens the activations [4, 2048, 4096] to the matrix [8192, 4096] (row 2048·b + s is
  (b, s)) and narrows it, takes the sign of the weight and narrows it, and lays the bias as one row [1, 4096]. With exact
  arithmetic narrowing is the identity. After the launch it folds the [8192, 4096] output back to [4, 2048, 4096]. So the
  kernel's result at (b, s, o) is entry (2048·b + s, o) of the result matrix, which is
      (∑ d, x(b, s, d) · sign(w(o, d))) + bias(o).
-/
import proofs.«111854_j18580028523111_2_alg».proof.Proof.ResultMatrix
import Idealize.ShloMosaic.Lib.StableHlo.Run
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.BitLinear

variable (m : (ℓ : Loc nD τ sig) → Buf (Elt Ideal) ℓ) (ρ : Dev nD → PrngReg)

/-- The activations matrix at (2048·b + s, d) is the activations at (b, s, d). -/
theorem act_entry (c : Dev nD) (b : Fin 4) (s : Fin 2048) (d : Fin 4096) (a : Fin 8192) (ha : a.val = b.val * 2048 + s.val) :
    actMat m c (ix2 a d) = m ((c : Thread nD τ).loc main_arg0) (ix3 b s d) := by
  have e : actMat m c = truncf (F := Ideal) .bf16 (shapeCast S8192x4096 (m ((c : Thread nD τ).loc main_arg0)) shapeCasts_S4x2048x4096_S8192x4096 : FVec Ideal S8192x4096 .f32) bitsLt_bf16_f32 := by
    show StableHlo.after hostOps0 (fun b => m (c, b)) (Proc.devRef .tc main_v1) = _
    after_results
    rfl
  rw [e]
  show shapeCast S8192x4096 (m ((c : Thread nD τ).loc main_arg0)) shapeCasts_S4x2048x4096_S8192x4096 (ix2 a d) = _
  exact shapeCast_apply (s := S4x2048x4096) (t := S8192x4096) _ _ _ _ (by
    rw [Shape.rowMajor_val_three, Shape.rowMajor_val_two]
    show (b.val * 2048 + s.val) * 4096 + d.val = a.val * 4096 + d.val
    rw [ha])

/-- The sign matrix is the sign of the weight, entry by entry. -/
theorem sign_entry (c : Dev nD) (j : S4096x4096.Idx) :
    signMat m c j = FloatOps.hostUnary (F := Ideal) (φ := .f32) .sign (m ((c : Thread nD τ).loc main_arg1) j) := by
  have e : signMat m c = truncf (F := Ideal) .bf16 (Host.sign (F := Ideal) (m ((c : Thread nD τ).loc main_arg1)) : FVec Ideal S4096x4096 .f32) bitsLt_bf16_f32 := by
    show StableHlo.after hostOps0 (fun b => m (c, b)) (Proc.devRef .tc main_v3) = _
    after_results
  rw [e]
  rfl

/-- The bias row at (0, o) is the bias at o. -/
theorem bias_entry (c : Dev nD) (o : Fin 4096) :
    biasRow m c (ix2 (0 : Fin 1) o) = m ((c : Thread nD τ).loc main_arg2) (ix1 o) := by
  have e : biasRow m c = shapeCast S1x4096 (m ((c : Thread nD τ).loc main_arg2)) shapeCasts_S4096_S1x4096 := by
    show StableHlo.after hostOps0 (fun b => m (c, b)) (Proc.devRef .tc main_v4) = _
    after_results
    rfl
  rw [e]
  exact shapeCast_a_1a_apply _ _ _ _

/-- The host line after the launch folds the output array — the result matrix — back to three axes. -/
theorem result_tensor (c : Dev nD) :
    Pipeline.afterTail₀ cfgs (dats m) 0 (V0 m) [hostOps1] c main_v6
      = shapeCast S4x2048x4096 (lin (actMat m c) (signMat m c) (biasRow m c)) shapeCasts_S8192x4096_S4x2048x4096 := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = lin (actMat m c) (signMat m c) (biasRow m c) :=
    (Pipeline.withArrays_arr spec0 launch0.win.arr_inj c _ _ 3).trans (result_matrix m c)
  rw [hw]
  rfl

/-- The folded result at (b, s, o) is the result matrix at (2048·b + s, o). -/
theorem fold_entry (M : S8192x4096.Idx → EReal) (b : Fin 4) (s : Fin 2048) (o : Fin 4096) :
    shapeCast S4x2048x4096 M shapeCasts_S8192x4096_S4x2048x4096 (ix3 b s o)
      = M (ix2 ⟨b.val * 2048 + s.val, by have := b.isLt; have := s.isLt; omega⟩ o) :=
  shapeCast_apply (s := S8192x4096) (t := S4x2048x4096) _ _ _ _ (by
    rw [Shape.rowMajor_val_three, Shape.rowMajor_val_two]
    rfl)

/-- THE KERNEL'S RUN, read: every weakly fair execution terminates with the result tensor at the folded result matrix
    and the arguments as launched. -/
theorem run : θ_run defs (onTc (τ := τ) (main (F := Ideal))) ⟨m, fun _ => 0, ρ⟩ fun r => ∀ c : Dev nD,
      r.2.mem ((c.tc : Thread nD τ).loc main_v6)
        = shapeCast S4x2048x4096 (lin (actMat m c) (signMat m c) (biasRow m c)) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (result_tensor m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Acc

end
-- ==== Proof.Bridge.lean ====
/-
  The kernel's result and the reference's are one function of the arguments.

  The reference contracts the activations' last axis against the sign matrix's second axis and adds the bias along the
  last axis: at (b, s, o) it is (∑ d, x(b, s, d) · sign(w(o, d))) + bias(o). The kernel's folded result matrix at
  (b, s, o) is entry (2048·b + s, o) of the result matrix, the same sum over the flattened activations, plus the bias row's
  entry o. Term by term the two sums agree, and so do the bias entries.
-/
import proofs.«111854_j18580028523111_2_alg».proof.Proof.HostSide
import proofs.«111854_j18580028523111_2_alg».proof.Proof.Gen.ReferenceIdeal.Read

noncomputable section

open scoped BigOperators
open Idealize.ShloMosaic Idealize.ShloMosaic.TcCoe Idealize.SL.Sem Idealize.ShloMosaic.ValueIdx

namespace Cert.BitLinear

open Cert.KernelIdeal.Acc

/-- The kernel's folded result is the reference's last stage of the same three arguments. -/
theorem kernel_eq_reference (m : (ℓ : Loc Cert.KernelIdeal.nD Cert.KernelIdeal.τ Cert.KernelIdeal.sig) → Buf (Elt Ideal) ℓ)
    (c : Dev Cert.KernelIdeal.nD) :
    shapeCast Cert.KernelIdeal.S4x2048x4096 (lin (actMat m c) (signMat m c) (biasRow m c))
        Cert.KernelIdeal.Facts₀.shapeCasts_S8192x4096_S4x2048x4096
      = Cert.ReferenceIdeal.Read.val_main_v4 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  funext i
  obtain ⟨b, s, o, rfl⟩ : ∃ (b : Fin 4) (s : Fin 2048) (o : Fin 4096), i = ix3 b s o := ⟨i 0, i 1, i 2, eq_ix3 i⟩
  rw [fold_entry, Cert.ReferenceIdeal.Read.val_main_v4_apply, Cert.ReferenceIdeal.Read.val_main_v1_apply,
    Cert.ReferenceIdeal.Read.val_main_v3_apply, Cert.ReferenceIdeal.Read.val_main_v2_apply]
  have el : ∀ k : Fin 4096, Cert.ReferenceIdeal.Read.lidx_main_v1 (ix3 b s o) k = ix3 b s k := fun k =>
    funext fun a => Fin.ext (by match a with | ⟨0, _⟩ => rfl | ⟨1, _⟩ => rfl | ⟨2, _⟩ => rfl)
  have er : ∀ k : Fin 4096, Cert.ReferenceIdeal.Read.ridx_main_v1 (ix3 b s o) k = ix2 o k := fun k =>
    funext fun a => Fin.ext (by match a with | ⟨0, _⟩ => rfl | ⟨1, _⟩ => rfl)
  have eb : Cert.ReferenceIdeal.Read.idx_main_v2 (Cert.ReferenceIdeal.Read.idx_main_v3 (ix3 b s o)) = ix1 o :=
    funext fun a => Fin.ext (by match a with | ⟨0, _⟩ => rfl)
  rw [eb]
  show (∑ d : Fin 4096, actMat m c (ix2 ⟨b.val * 2048 + s.val, _⟩ d) * signMat m c (ix2 o d)) + biasRow m c (ix2 (0 : Fin 1) o) = _ + _
  rw [bias_entry]
  refine congrArg (· + _) (Finset.sum_congr rfl fun k _ => ?_)
  rw [act_entry m c b s k _ rfl, sign_entry, el, er, Cert.ReferenceIdeal.Read.val_main_v0_apply]

end Cert.BitLinear

end
-- ==== Proof.lean ====
/-
  A linear layer with sign-binarized weights: out(b, s, o) = (∑ d, x(b, s, d) · sign(w(o, d))) + bias(o).

  The kernel flattens x to an 8192 by 4096 matrix and computes the product tile by tile (1024 by 2048 output tiles),
  sweeping the 4096 contraction positions in four chunks of 1024 that it adds, in order, onto a zeroed tile, adding the
  bias row after the last chunk; the host then folds the matrix back to [4, 2048, 4096]. The reference contracts in one
  step and adds the broadcast bias. With exact arithmetic (narrowing to bf16 is the identity, sign is the same function on
  both sides) the two are the same sum, regrouped: addition of extended reals is associative and commutative with
  neutral element 0, so equality holds at every input and the finiteness precondition is not used.

  The three frames are the generated ones (the reference's is its generated run with the result dropped); the ideal
  pass rewrote nothing, so the idealization claim is trivial; the value claim is assembled below from the kernel's run
  read as the folded result matrix (Proof/HostSide.lean) and the identification of that matrix with the reference's
  last stage (Proof/Bridge.lean).
-/
import proofs.«111854_j18580028523111_2_alg».proof.Defs
import proofs.«111854_j18580028523111_2_alg».proof.Proof.Gen.Kernel
import proofs.«111854_j18580028523111_2_alg».proof.Proof.Gen.Kernel.Skeleton
import proofs.«111854_j18580028523111_2_alg».proof.Proof.Gen.Kernel.Launch
import proofs.«111854_j18580028523111_2_alg».proof.Proof.Gen.Kernel.Points
import proofs.«111854_j18580028523111_2_alg».proof.Proof.Gen.Kernel.Frame
import proofs.«111854_j18580028523111_2_alg».proof.Proof.Gen.KernelIdeal
import proofs.«111854_j18580028523111_2_alg».proof.Proof.Gen.KernelIdeal.Skeleton
import proofs.«111854_j18580028523111_2_alg».proof.Proof.Gen.KernelIdeal.Launch
import proofs.«111854_j18580028523111_2_alg».proof.Proof.Gen.KernelIdeal.Points
import proofs.«111854_j18580028523111_2_alg».proof.Proof.Gen.KernelIdeal.Frame
import proofs.«111854_j18580028523111_2_alg».proof.Proof.Gen.ReferenceIdeal
import proofs.«111854_j18580028523111_2_alg».proof.Proof.Gen.Pre_finite_inputs
import proofs.«111854_j18580028523111_2_alg».proof.Proof.Gen.ReferenceIdeal.Run
import proofs.«111854_j18580028523111_2_alg».proof.Proof.Gen.ReferenceIdeal.Read
import proofs.«111854_j18580028523111_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result tensor at the folded result matrix of the (agreeing) arguments. -/
theorem algebraic : Cert.algebraic_KernelIdeal_ReferenceIdeal := by
  intro m ρ m' ρ' _ hagree
  refine ⟨fun c => shapeCast Cert.KernelIdeal.S4x2048x4096
      (Cert.BitLinear.lin (Cert.KernelIdeal.Acc.actMat m c) (Cert.KernelIdeal.Acc.signMat m c) (Cert.KernelIdeal.Acc.biasRow m c))
      Cert.KernelIdeal.Facts₀.shapeCasts_S8192x4096_S4x2048x4096,
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2.1, (hagree c).2.2]
  exact (Cert.BitLinear.kernel_eq_reference m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
